-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S100000x32 : Shape := ⟨2, ![100000, 32]⟩
abbrev S10000x64 : Shape := ⟨2, ![10000, 64]⟩
abbrev S10000x32 : Shape := ⟨2, ![10000, 32]⟩
abbrev S1x64 : Shape := ⟨2, ![1, 64]⟩
abbrev S1700000x32 : Shape := ⟨2, ![1700000, 32]⟩
abbrev S100000x1 : Shape := ⟨2, ![100000, 1]⟩
abbrev S20000x32 : Shape := ⟨2, ![20000, 32]⟩
abbrev S20000x1 : Shape := ⟨2, ![20000, 1]⟩
abbrev S1x32 : Shape := ⟨2, ![1, 32]⟩
abbrev S1x1 : Shape := ⟨2, ![1, 1]⟩

abbrev nBuf : Space → Nat
  | .hbm => 83
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x1, .f32⟩
  | .hbm, ⟨76, _⟩ => ⟨S1700000x32, .f32⟩
  | .hbm, ⟨77, _⟩ => ⟨S1700000x32, .f32⟩
  | .hbm, ⟨78, _⟩ => ⟨S_, .f32⟩
  | .hbm, ⟨79, _⟩ => ⟨S100000x32, .f32⟩
  | .hbm, ⟨80, _⟩ => ⟨S1700000x1, .i32⟩
  | .hbm, ⟨81, _⟩ => ⟨S100000x32, .f32⟩
  | .hbm, ⟨82, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S20000x32, .f32⟩
  | .local _ .vmem, ⟨12, _⟩ => ⟨S20000x32, .f32⟩
  | .local _ .vmem, ⟨13, _⟩ => ⟨S32, .f32⟩
  | .local _ .vmem, ⟨14, _⟩ => ⟨S32x1, .f32⟩
  | .local _ .vmem, ⟨15, _⟩ => ⟨S1, .f32⟩
  | .local _ .vmem, ⟨16, _⟩ => ⟨S20000x1, .f32⟩
  | .local _ .vmem, ⟨17, _⟩ => ⟨S20000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S20000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  inb_S32_S32_0 : ∀ a, (![0] : Fin 1 → Nat) a + S32.size a ≤ S32.size a
  h_S32 : 0 < S32.numel
  shapeCasts_S32_S1x32 : S32.ShapeCasts S1x32
  broadcasts_S1x32_S20000x32 : S1x32.Broadcasts S20000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S20000x32_S32x1_S20000x1_1_0_0_1_n_n_wf : DotDims.WF S20000x32 S32x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x1.size a ≤ S100000x1.size a
  hwx2_4 : ∀ i : grid2.Coords, EltTy.bits .f32 = 32 ∨ (Rect.block (s := S100000x1) S20000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S20000x32_S32x1_S20000x1_1_0_0_1_n_n : DotDims S20000x32 S32x1 S20000x1 where
  lhsContracting := [1]
  rhsContracting := [0]
  lhsNonContracting := [0]
  rhsNonContracting := [1]
  lhsBatch := []
  rhsBatch := []
  wf := dot_S20000x32_S32x1_S20000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S20000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel program's run, with its final memory named.

  The program is three kernel regions among stretches of host operations.  Its buffers' contents at every boundary
  are a fold from the launch memory: a host stretch applies its operations, a region replaces the arrays of its
  windows by what its write-backs leave and keeps every other buffer.  Every weakly fair execution terminates, and in
  the final state every buffer that outlives a region holds the last boundary's contents.  The result buffer and the
  eight arguments are among them; what those contents ARE, as functions of the arguments, is read in the modules
  that import this one.
-/
import proofs.«117785_j77653008712166_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every final state has each buffer
    that is not scoped to a region at the contents the fold through the program's segments ends with. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A buffer of the program that no region scopes is among those the final state is read at. -/
theorem mem_uc (b : Ref sig .tc) (h : ¬ (Proc.devRef .tc b : DevRef τ sig).isScoped) : Proc.devRef .tc b ∈ Pipeline.ucRefs τ sig :=
  Cert.KernelIdeal.Gen.mem_uc b h

end Cert.KernelIdeal.Final

end
-- ==== Proof.Spec.lean ====
/-
  The two-layer graph convolution, cut where the kernel program cuts it.

  Both programs compute, from node features x, an edge list e (with a self loop appended per node) and the layer
  parameters,
      h1  = x · W1                      agg1 = A(h1)
      h2  = relu(agg1 + b1) · W2        agg2 = A(h2)
      out = relu(agg2 + b2) · Wlin + blin
  where A gathers each edge's source row, scales it by the edge's normalisation coefficient and adds it into the
  edge's destination row.  The reference does all of it with host operations; the kernel program does the three dense
  steps in kernels, row block by row block, and A on the host.  Here each step is a function of arrays: the dense
  steps read at an index as sums over the contracted axis, A kept closed (both programs apply the same gather and
  scatter-add, and nothing here opens them).  The reference's staged functions are these steps composed.
-/
import proofs.«117785_j77653008712166_1_alg».proof.Proof.RefRead
import Idealize.ShloMosaic.PureOps.Ideal.Laws
import Idealize.ShloMosaic.Lib.ValueIdx

noncomputable section

namespace Cert.Gcn

open Cert.ReferenceIdeal Cert.ReferenceIdeal.Gen Cert.ReferenceIdeal.ReadP Idealize.ShloMosaic Idealize.ShloMosaic.TcCoe
open Idealize.ShloMosaic.ValueIdx

/-! ## Message passing, closed -/

/-- The row a gather reads for each edge: the edge's source node, an id below zero moved up by the node count. -/
def rowIdx (src : IVec S1700000 32) : IVec S1700000x1 32 :=
  broadcastInDim S1700000x1 ![0] bcast_S1700000_S1700000x1_0
    (select (cmpi .slt src (val_main_v32 (F := Ideal))) (addi src (val_main_v34 (F := Ideal))) src)

/-- The aggregation over 64 features: the sum, into each destination row, of the source rows scaled by the edges'
    coefficients. -/
def aggregate64 (src dst : IVec S1700000 32) (norm : FVec Ideal S1700000 .f32) (y : FVec Ideal S100000x64 .f32) : FVec Ideal S100000x64 .f32 :=
  Host.scatterAdd (F := Ideal) scatter_S100000x64_S1700000x1_S1700000x64_1_0_0_1 (val_main_v41 (F := Ideal))
    (broadcastInDim S1700000x1 ![0] bcast_S1700000_S1700000x1_0 dst)
    (mulf (F := Ideal) (broadcastInDim S1700000x64 ![0, 1] bcast_S1700000x1_S1700000x64_0_1 (broadcastInDim S1700000x1 ![0] bcast_S1700000_S1700000x1_0 norm))
      (Host.gather gather_S100000x64_S1700000x1_S1700000x64_1_0_n_n_0_1_164 y (rowIdx src)))

/-- The same over 32 features. -/
def aggregate32 (src dst : IVec S1700000 32) (norm : FVec Ideal S1700000 .f32) (y : FVec Ideal S100000x32 .f32) : FVec Ideal S100000x32 .f32 :=
  Host.scatterAdd (F := Ideal) scatter_S100000x32_S1700000x1_S1700000x32_1_0_0_1 (val_main_v59 (F := Ideal))
    (broadcastInDim S1700000x1 ![0] bcast_S1700000_S1700000x1_0 dst)
    (mulf (F := Ideal) (broadcastInDim S1700000x32 ![0, 1] bcast_S1700000x1_S1700000x32_0_1 (broadcastInDim S1700000x1 ![0] bcast_S1700000_S1700000x1_0 norm))
      (Host.gather gather_S100000x32_S1700000x1_S1700000x32_1_0_n_n_0_1_132 y (rowIdx src)))

/-! ## The normalisation, closed -/

/-- Each node's in-degree (self loop included) to the power -1/2, zero where the degree is not positive. -/
def degInvSqrt (dst : IVec S1700000 32) : FVec Ideal S100000 .f32 :=
  select
    (cmpf (F := Ideal) (φ := .f32) .ogt
      (Host.scatterAdd (F := Ideal) (φ := .f32) scatter_S100000_S1700000x1_S1700000_n_0_0_1 (val_main_v8 (F := Ideal))
        (broadcastInDim S1700000x1 ![0] bcast_S1700000_S1700000x1_0 dst) (val_main_v7 (F := Ideal)))
      (val_main_v11 (F := Ideal)))
    (Host.rsqrt (F := Ideal) (φ := .f32)
      (Host.scatterAdd (F := Ideal) (φ := .f32) scatter_S100000_S1700000x1_S1700000_n_0_0_1 (val_main_v8 (F := Ideal))
        (broadcastInDim S1700000x1 ![0] bcast_S1700000_S1700000x1_0 dst) (val_main_v7 (F := Ideal))))
    (val_main_call0_v1 (F := Ideal))

/-- An edge's coefficient: its source's factor times its destination's. -/
def edgeNorm (src dst : IVec S1700000 32) (dinv : FVec Ideal S100000 .f32) : FVec Ideal S1700000 .f32 :=
  mulf (F := Ideal)
    (Host.gather gather_S100000_S1700000x1_S1700000_n_0_n_n_0_1_1 dinv
      (broadcastInDim S1700000x1 ![0] bcast_S1700000_S1700000x1_0
        (select (cmpi .slt src (val_main_v15 (F := Ideal))) (addi src (val_main_v17 (F := Ideal))) src)))
    (Host.gather gather_S100000_S1700000x1_S1700000_n_0_n_n_0_1_1 dinv
      (broadcastInDim S1700000x1 ![0] bcast_S1700000_S1700000x1_0
        (select (cmpi .slt dst (val_main_v22 (F := Ideal))) (addi dst (val_main_v24 (F := Ideal))) dst)))

theorem ref_dinv (e : IVec S2x1600000 32) : val_main_v14 (F := Ideal) e = degInvSqrt (val_main_v6 (F := Ideal) e) := rfl

theorem ref_norm (e : IVec S2x1600000 32) :
    val_main_v29 (F := Ideal) e = edgeNorm (val_main_v3 (F := Ideal) e) (val_main_v6 (F := Ideal) e) (val_main_v14 (F := Ideal) e) := rfl

/-! ## The dense steps -/

/-- The second dense step: relu(agg + b) · W. -/
def dense2 (agg : FVec Ideal S100000x64 .f32) (b : FVec Ideal S64 .f32) (w : FVec Ideal S64x32 .f32) : FVec Ideal S100000x32 .f32 :=
  Host.dotGeneral (F := Ideal) dot_S100000x64_S64x32_S100000x32_1_0_0_1_n_n none
    (maximumf (F := Ideal) (addf (F := Ideal) agg (val_main_v45 (F := Ideal) b)) (val_main_call1_v0 (F := Ideal))) w

/-- The last dense step: relu(agg + b) · W + c. -/
def dense3 (agg : FVec Ideal S100000x32 .f32) (b : FVec Ideal S32 .f32) (w : FVec Ideal S32x1 .f32) (c : FVec Ideal S1 .f32) : FVec Ideal S100000x1 .f32 :=
  addf (F := Ideal) (Host.dotGeneral (F := Ideal) dot_S100000x32_S32x1_S100000x1_1_0_0_1_n_n none
    (maximumf (F := Ideal) (addf (F := Ideal) agg (val_main_v63 (F := Ideal) b)) (val_main_call2_v0 (F := Ideal))) w) (val_main_v68 (F := Ideal) c)

/-! ## The reference's stages are these steps composed -/

theorem ref_agg1 (x0 : FVec Ideal S100000x256 .f32) (e : IVec S2x1600000 32) (x2 : FVec Ideal S256x64 .f32) :
    val_main_v43 (F := Ideal) x0 e x2
      = aggregate64 (val_main_v3 (F := Ideal) e) (val_main_v6 (F := Ideal) e) (val_main_v29 (F := Ideal) e) (val_main_v30 (F := Ideal) x0 x2) := rfl

theorem ref_h2 (x0 : FVec Ideal S100000x256 .f32) (e : IVec S2x1600000 32) (x2 : FVec Ideal S256x64 .f32) (x3 : FVec Ideal S64 .f32) (x4 : FVec Ideal S64x32 .f32) :
    val_main_v48 (F := Ideal) x0 e x2 x3 x4 = dense2 (val_main_v43 (F := Ideal) x0 e x2) x3 x4 := rfl

theorem ref_agg2 (x0 : FVec Ideal S100000x256 .f32) (e : IVec S2x1600000 32) (x2 : FVec Ideal S256x64 .f32) (x3 : FVec Ideal S64 .f32) (x4 : FVec Ideal S64x32 .f32) :
    val_main_v61 (F := Ideal) x0 e x2 x3 x4
      = aggregate32 (val_main_v3 (F := Ideal) e) (val_main_v6 (F := Ideal) e) (val_main_v29 (F := Ideal) e) (val_main_v48 (F := Ideal) x0 e x2 x3 x4) := rfl

theorem ref_out (x0 : FVec Ideal S100000x256 .f32) (e : IVec S2x1600000 32) (x2 : FVec Ideal S256x64 .f32) (x3 : FVec Ideal S64 .f32) (x4 : FVec Ideal S64x32 .f32)
    (x5 : FVec Ideal S32 .f32) (x6 : FVec Ideal S32x1 .f32) (x7 : FVec Ideal S1 .f32) :
    val_main_v69 (F := Ideal) x0 e x2 x3 x4 x5 x6 x7 = dense3 (val_main_v61 (F := Ideal) x0 e x2 x3 x4) x5 x6 x7 := rfl

/-! ## The dense steps read at an index -/

/-- The first dense step at row r, column q: the sum over the 256 input features. -/
theorem dense1_at (x0 : FVec Ideal S100000x256 .f32) (x2 : FVec Ideal S256x64 .f32) (r : Fin 100000) (q : Fin 64) :
    val_main_v30 (F := Ideal) x0 x2 (ix2 r q) = ∑ k : Fin 256, x0 (ix2 r k) * x2 (ix2 k q) := by
  rw [val_main_v30_apply]
  refine Finset.sum_congr rfl fun k _ => ?_
  have el : lidx_main_v30 (ix2 r q) k = ix2 r k := funext fun a => Fin.ext (by
    match a with
    | ⟨0, _⟩ => rfl
    | ⟨1, _⟩ => rfl)
  have er : ridx_main_v30 (ix2 r q) k = ix2 k q := funext fun a => Fin.ext (by
    match a with
    | ⟨0, _⟩ => rfl
    | ⟨1, _⟩ => rfl)
  rw [el, er]

/-- A [100000, 64] by [64, 32] product on the host at row r, column q: the sum over the 64 contracted features. -/
theorem dot64_at (y0 : FVec Ideal S100000x64 .f32) (w : FVec Ideal S64x32 .f32) (r : Fin 100000) (q : Fin 32) :
    Host.dotGeneral (F := Ideal) dot_S100000x64_S64x32_S100000x32_1_0_0_1_n_n none y0 w (ix2 r q) = ∑ k : Fin 64, y0 (ix2 r k) * w (ix2 k q) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx (ix2 r q) ((ValueIdx.contrEquiv1 dot_S100000x64_S64x32_S100000x32_1_0_0_1_n_n 64 rfl rfl).symm k) = ix2 r k := funext fun a => Fin.ext (by
    match a with
    | ⟨0, _⟩ => exact lhs_main_v48_0 _ _
    | ⟨1, _⟩ => exact (lhs_main_v48_1 _ _).trans hk)
  have er : dot_S100000x64_S64x32_S100000x32_1_0_0_1_n_n.rhsIdx (ix2 r q) ((ValueIdx.contrEquiv1 dot_S100000x64_S64x32_S100000x32_1_0_0_1_n_n 64 rfl rfl).symm k) = ix2 k q := funext fun a => Fin.ext (by
    match a with
    | ⟨0, _⟩ => exact (rhs_main_v48_0 _ _).trans hk
    | ⟨1, _⟩ => exact rhs_main_v48_1 _ _)
  rw [el, er]

/-- A [100000, 32] by [32, 1] product on the host at row r: the sum over the 32 contracted features. -/
theorem dot32_at (y0 : FVec Ideal S100000x32 .f32) (w : FVec Ideal S32x1 .f32) (r : Fin 100000) (q : Fin 1) :
    Host.dotGeneral (F := Ideal) dot_S100000x32_S32x1_S100000x1_1_0_0_1_n_n none y0 w (ix2 r q) = ∑ k : Fin 32, y0 (ix2 r k) * w (ix2 k q) := by
  simp only [Host.dotGeneral]
  rw [Ideal.dotGeneral_apply, ← Equiv.sum_comp (ValueIdx.contrEquiv1 dot_S100000x32_S32x1_S100000x1_1_0_0_1_n_n 32 rfl rfl).symm]
  refine Finset.sum_congr rfl fun k _ => ?_
  have hk := ValueIdx.contrEquiv1_symm_val dot_S100000x32_S32x1_S100000x1_1_0_0_1_n_n 32 rfl rfl k
  have el : dot_S100000x32_S32x1_S100000x1_1_0_0_1_n_n.lhsIdx (ix2 r q) ((ValueIdx.contrEquiv1 dot_S100000x32_S32x1_S100000x1_1_0_0_1_n_n 32 rfl rfl).symm k) = ix2 r k := funext fun a => Fin.ext (by
    match a with
    | ⟨0, _⟩ => exact lhs_main_v66_0 _ _
    | ⟨1, _⟩ => exact (lhs_main_v66_1 _ _).trans hk)
  have er : dot_S100000x32_S32x1_S100000x1_1_0_0_1_n_n.rhsIdx (ix2 r q) ((ValueIdx.contrEquiv1 dot_S100000x32_S32x1_S100000x1_1_0_0_1_n_n 32 rfl rfl).symm k) = ix2 k q := funext fun a => Fin.ext (by
    match a with
    | ⟨0, _⟩ => exact (rhs_main_v66_0 _ _).trans hk
    | ⟨1, _⟩ => exact rhs_main_v66_1 _ _)
  rw [el, er]

/-- relu(agg + b) over 64 features at row r, feature k: the bias is the feature's, whatever the row. -/
theorem relu64_at (agg : FVec Ideal S100000x64 .f32) (b : FVec Ideal S64 .f32) (r : Fin 100000) (k : Fin 64) :
    maximumf (F := Ideal) (addf (F := Ideal) agg (val_main_v45 (F := Ideal) b)) (val_main_call1_v0 (F := Ideal)) (ix2 r k)
      = max (agg (ix2 r k) + b (ix1 k)) (Ideal.ofBits .f32 0x00000000#32) := by
  show max (agg (ix2 r k) + val_main_v45 (F := Ideal) b (ix2 r k)) (val_main_call1_v0 (F := Ideal) (ix2 r k)) = _
  rw [val_main_v45_apply, val_main_v44_apply, val_main_call1_v0_apply, val_main_call1_cst_apply]
  have e : idx_main_v44 (idx_main_v45 (ix2 r k)) = ix1 k := funext fun a => Fin.ext (by
    match a with
    | ⟨0, _⟩ => rfl)
  rw [e]
  rfl

/-- relu(agg + b) over 32 features at row r, feature k. -/
theorem relu32_at (agg : FVec Ideal S100000x32 .f32) (b : FVec Ideal S32 .f32) (r : Fin 100000) (k : Fin 32) :
    maximumf (F := Ideal) (addf (F := Ideal) agg (val_main_v63 (F := Ideal) b)) (val_main_call2_v0 (F := Ideal)) (ix2 r k)
      = max (agg (ix2 r k) + b (ix1 k)) (Ideal.ofBits .f32 0x00000000#32) := by
  show max (agg (ix2 r k) + val_main_v63 (F := Ideal) b (ix2 r k)) (val_main_call2_v0 (F := Ideal) (ix2 r k)) = _
  rw [val_main_v63_apply, val_main_v62_apply, val_main_call2_v0_apply, val_main_call2_cst_apply]
  have e : idx_main_v62 (idx_main_v63 (ix2 r k)) = ix1 k := funext fun a => Fin.ext (by
    match a with
    | ⟨0, _⟩ => rfl)
  rw [e]
  rfl

/-- The second dense step at row r, column q. -/
theorem dense2_at (agg : FVec Ideal S100000x64 .f32) (b : FVec Ideal S64 .f32) (w : FVec Ideal S64x32 .f32) (r : Fin 100000) (q : Fin 32) :
    dense2 agg b w (ix2 r q)
      = ∑ k : Fin 64, max (agg (ix2 r k) + b (ix1 k)) (Ideal.ofBits .f32 0x00000000#32) * w (ix2 k q) := by
  unfold dense2
  rw [dot64_at]
  refine Finset.sum_congr rfl fun k _ => ?_
  rw [relu64_at]

/-- The last dense step at row r (its one column q): the product's sum plus the output bias. -/
theorem dense3_at (agg : FVec Ideal S100000x32 .f32) (b : FVec Ideal S32 .f32) (w : FVec Ideal S32x1 .f32) (c : FVec Ideal S1 .f32) (r : Fin 100000) (q : Fin 1) :
    dense3 agg b w c (ix2 r q)
      = (∑ k : Fin 32, max (agg (ix2 r k) + b (ix1 k)) (Ideal.ofBits .f32 0x00000000#32) * w (ix2 k q)) + c (ix1 0) := by
  unfold dense3
  show Host.dotGeneral (F := Ideal) dot_S100000x32_S32x1_S100000x1_1_0_0_1_n_n none _ w (ix2 r q) + val_main_v68 (F := Ideal) c (ix2 r q) = _
  rw [dot32_at, val_main_v68_apply, val_main_v67_apply]
  have e : idx_main_v67 (idx_main_v68 (ix2 r q)) = ix1 0 := funext fun a => Fin.ext (by
    match a with
    | ⟨0, _⟩ => rfl)
  rw [e]
  refine congrArg (· + c (ix1 0)) (Finset.sum_congr rfl fun k _ => ?_)
  rw [relu32_at]

end Cert.Gcn

end
-- ==== Proof.Stretch.lean ====
/-
  The kernel program's host stretches, from any buffer contents.

  Before the first region the program builds, from the edge list, the source and destination lists with a self loop
  per node, each node's in-degree to the power -1/2 (zero where the degree is not positive) and each edge's
  coefficient, by the reference's own operations.  Between the regions it gathers, scales and scatter-adds as the
  reference does, except that it multiplies the gathered rows by the coefficients where the reference multiplies the
  coefficients by the gathered rows: one commutation of a product of extended reals.  Each stretch is read here as a
  function of the buffers it reads, those kept closed, so that no comparison opens more than one step.
-/
import proofs.«117785_j77653008712166_1_alg».proof.Proof.Gen.KernelIdeal.Launch
import proofs.«117785_j77653008712166_1_alg».proof.Proof.Spec
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v7 val_main_v8 val_main_v11 val_main_v14 val_main_v29)

/-- A product of extended reals, entry by entry, does not depend on the order of its factors. -/
theorem mulf_comm {s : Shape} (a b : FVec Ideal s .f32) : mulf a b = mulf b a := funext fun i => mul_comm (a i) (b i)

/-- Running one list of operations after another is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

variable (Wp : Valuation τ sig (Elt Ideal))

/-! ## Before the first region: the edge lists -/

/-- The first seven operations: the source and destination lists, each with the self loops appended. -/
abbrev opsEdges : List (HloOp τ sig (Elt Ideal)) := (hostOps0 (F := Ideal)).take 7
/-- The rest of the first stretch: the degree, whether it is positive, its inverse square root. -/
abbrev opsDeg : List (HloOp τ sig (Elt Ideal)) := (hostOps0 (F := Ideal)).drop 7

theorem split0 : after hostOps0 Wp = after opsDeg (after opsEdges Wp) := by
  rw [← after_append]
  exact congrArg (after · Wp) (List.take_append_drop 7 _).symm

theorem edges_src : after opsEdges Wp (Proc.devRef .tc main_v3) = val_main_v3 (F := Ideal) (Wp (Proc.devRef .tc main_arg1)) := by
  simp only [opsEdges, hostOps0, List.take_succ_cons, List.take_zero]
  after_results
  rfl

theorem edges_dst : after opsEdges Wp (Proc.devRef .tc main_v6) = val_main_v6 (F := Ideal) (Wp (Proc.devRef .tc main_arg1)) := by
  simp only [opsEdges, hostOps0, List.take_succ_cons, List.take_zero]
  after_results
  rfl

/-! ## Before the first region: the degree and its inverse square root -/

/-- The in-degree of every node, self loop included: ones added at the destinations. -/
abbrev degree (dst : IVec Cert.ReferenceIdeal.S1700000 32) : FVec Ideal Cert.ReferenceIdeal.S100000 .f32 :=
  Host.scatterAdd (F := Ideal) (φ := .f32) Cert.ReferenceIdeal.scatter_S100000_S1700000x1_S1700000_n_0_0_1 (val_main_v8 (F := Ideal))
    (broadcastInDim Cert.ReferenceIdeal.S1700000x1 ![0] Cert.ReferenceIdeal.Gen.bcast_S1700000_S1700000x1_0 dst) (val_main_v7 (F := Ideal))

set_option maxHeartbeats 4000000 in
theorem deg_pos : after opsDeg Wp (Proc.devRef .tc main_v12)
    = cmpf (F := Ideal) (φ := .f32) .ogt (degree (Wp (Proc.devRef .tc main_v6))) (val_main_v11 (F := Ideal)) := by
  simp only [opsDeg, hostOps0, List.drop_succ_cons, List.drop_zero]
  after_results_simp
  rfl

set_option maxHeartbeats 4000000 in
theorem deg_rsqrt : after opsDeg Wp (Proc.devRef .tc main_v13)
    = Host.rsqrt (F := Ideal) (φ := .f32) (degree (Wp (Proc.devRef .tc main_v6))) := by
  simp only [opsDeg, hostOps0, List.drop_succ_cons, List.drop_zero]
  after_results_simp
  rfl

set_option maxHeartbeats 4000000 in
theorem deg_zero : after opsDeg Wp (Proc.devRef .tc main_cst_2) = constant (F := Ideal) Cert.ReferenceIdeal.S_ .f32 0x00000000#32 := by
  simp only [opsDeg, hostOps0, List.drop_succ_cons, List.drop_zero]
  after_results_simp

set_option maxHeartbeats 4000000 in
/-- The call of the selection: the inverse square root where the degree is positive, zero elsewhere. -/
theorem where_sel : after hostOps0_1 Wp (Proc.devRef .tc main_v14)
    = select (Wp (Proc.devRef .tc main_v12)) (Wp (Proc.devRef .tc main_v13))
        (broadcastInDim Cert.ReferenceIdeal.S100000 ![] Cert.ReferenceIdeal.Gen.bcast_S_S100000 (id (Wp (Proc.devRef .tc main_cst_2)))) := by
  simp only [hostOps0_1]
  after_results
  rfl

set_option maxHeartbeats 4000000 in
/-- After the first two stretches: each node's factor. -/
theorem dinv01 : after hostOps0_1 (after hostOps0 Wp) (Proc.devRef .tc main_v14)
    = val_main_v14 (F := Ideal) (Wp (Proc.devRef .tc main_arg1)) := by
  rw [split0]
  refine (where_sel (after opsDeg (after opsEdges Wp))).trans ?_
  rw [deg_pos, deg_rsqrt, deg_zero, edges_dst, Cert.Gcn.ref_dinv]
  rfl

theorem src01 : after hostOps0_1 (after hostOps0 Wp) (Proc.devRef .tc main_v3) = val_main_v3 (F := Ideal) (Wp (Proc.devRef .tc main_arg1)) := by
  simp only [hostOps0, hostOps0_1]
  after_results
  rfl

theorem dst01 : after hostOps0_1 (after hostOps0 Wp) (Proc.devRef .tc main_v6) = val_main_v6 (F := Ideal) (Wp (Proc.devRef .tc main_arg1)) := by
  simp only [hostOps0, hostOps0_1]
  after_results
  rfl

/-! ## Before the first region: the edges' coefficients -/

set_option maxHeartbeats 4000000 in
/-- The third stretch: an edge's coefficient is its source's factor times its destination's. -/
theorem norm2 : after hostOps0_2 Wp (Proc.devRef .tc main_v29)
    = Cert.Gcn.edgeNorm (Wp (Proc.devRef .tc main_v3)) (Wp (Proc.devRef .tc main_v6)) (Wp (Proc.devRef .tc main_v14)) := by
  simp only [hostOps0_2]
  after_results_simp
  rfl

/-! ## The whole prefix -/

/-- Before the first region: the source list with its self loops. -/
theorem pre_src : after hostOps0_2 (after hostOps0_1 (after hostOps0 Wp)) (Proc.devRef .tc main_v3)
    = val_main_v3 (F := Ideal) (Wp (Proc.devRef .tc main_arg1)) := by
  simp only [hostOps0, hostOps0_1, hostOps0_2]
  after_results
  rfl

/-- Before the first region: the destination list with its self loops. -/
theorem pre_dst : after hostOps0_2 (after hostOps0_1 (after hostOps0 Wp)) (Proc.devRef .tc main_v6)
    = val_main_v6 (F := Ideal) (Wp (Proc.devRef .tc main_arg1)) := by
  simp only [hostOps0, hostOps0_1, hostOps0_2]
  after_results
  rfl

/-- Before the first region: the edges' coefficients. -/
theorem pre_norm : after hostOps0_2 (after hostOps0_1 (after hostOps0 Wp)) (Proc.devRef .tc main_v29)
    = val_main_v29 (F := Ideal) (Wp (Proc.devRef .tc main_arg1)) := by
  refine (norm2 (after hostOps0_1 (after hostOps0 Wp))).trans ?_
  rw [src01, dst01, dinv01]
  exact (Cert.Gcn.ref_norm _).symm

set_option maxHeartbeats 4000000 in
/-- The operations before the first region write no argument. -/
theorem pre_keep (b : Ref sig .tc) (hb : b = main_arg0 ∨ b = main_arg2 ∨ b = main_arg3 ∨ b = main_arg4 ∨ b = main_arg5 ∨ b = main_arg6 ∨ b = main_arg7) :
    after hostOps0_2 (after hostOps0_1 (after hostOps0 Wp)) (Proc.devRef .tc b) = Wp (Proc.devRef .tc b) := by
  rcases hb with rfl | rfl | rfl | rfl | rfl | rfl | rfl <;>
    (simp only [hostOps0, hostOps0_1, hostOps0_2]; after_results_simp)

/-! ## Between the regions -/

set_option maxHeartbeats 4000000 in
/-- Between the first two regions: the aggregation over 64 features of the first region's result. -/
theorem agg1 : after hostOps1 Wp (Proc.devRef .tc main_v43)
    = Cert.Gcn.aggregate64 (Wp (Proc.devRef .tc main_v3)) (Wp (Proc.devRef .tc main_v6)) (Wp (Proc.devRef .tc main_v29)) (Wp (Proc.devRef .tc main_v30)) := by
  simp only [hostOps1]
  after_results_simp
  rw [mulf_comm]
  rfl

/-- That stretch writes neither the edge lists, the coefficients nor an argument. -/
theorem keep1 (b : Ref sig .tc) (hb : b = main_v3 ∨ b = main_v6 ∨ b = main_v29 ∨ b = main_arg3 ∨ b = main_arg4 ∨ b = main_arg5 ∨ b = main_arg6 ∨ b = main_arg7) :
    after hostOps1 Wp (Proc.devRef .tc b) = Wp (Proc.devRef .tc b) := by
  rcases hb with rfl | rfl | rfl | rfl | rfl | rfl | rfl | rfl <;>
    (simp only [hostOps1]; after_results)

set_option maxHeartbeats 4000000 in
/-- Between the last two regions: the aggregation over 32 features of the second region's result. -/
theorem agg2 : after hostOps2 Wp (Proc.devRef .tc main_v57)
    = Cert.Gcn.aggregate32 (Wp (Proc.devRef .tc main_v3)) (Wp (Proc.devRef .tc main_v6)) (Wp (Proc.devRef .tc main_v29)) (Wp (Proc.devRef .tc main_v44)) := by
  simp only [hostOps2]
  after_results_simp
  rw [mulf_comm]
  rfl

/-- That stretch writes no argument. -/
theorem keep2 (b : Ref sig .tc) (hb : b = main_arg5 ∨ b = main_arg6 ∨ b = main_arg7) :
    after hostOps2 Wp (Proc.devRef .tc b) = Wp (Proc.devRef .tc b) := by
  rcases hb with rfl | rfl | rfl <;>
    (simp only [hostOps2]; after_results)

end Cert.KernelIdeal.Stretch

end
-- ==== Proof.Dense1.lean ====
/-
  The first kernel region computes x · W1 row block by row block.

  The grid has 20 points.  At point t the kernel loads rows 5000·t … 5000·t + 4999 of x and the whole of W1, multiplies
  them into a zero accumulator (rounding to bf16 on the way in changes nothing over the extended reals) and stores the
  [5000, 64] product, which the pipeline writes back as rows 5000·t … of the result array.  So entry (5000·t + p, q) of
  what point t writes is the sum over k of x(5000·t + p, k) · W1(k, q): block t of the whole product.  The 20 blocks
  cover the 100000 rows, so the array ends at the whole product — the reference's first stage.
-/
import proofs.«117785_j77653008712166_1_alg».proof.Proof.Gen.KernelIdeal.Frame
import proofs.«117785_j77653008712166_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem
open Idealize.ShloMosaic.Pipeline (Dat)
open Idealize.ShloMosaic.ValueIdx

/-- The kernel's matrix product: [5000, 256] by [256, 64], axis 1 against axis 0. -/
abbrev D := dot_S5000x256_S256x64_S5000x64_1_0_0_1_n_n

theorem hz : (![0, 0] : Fin 2 → Nat) = fun _ => 0 := funext fun a => by fin_cases a <;> rfl

/-! ## The product's operand indices -/

theorem lhs0 (i : S5000x64.Idx) (q : D.contr.Idx) : (D.lhsIdx i q 0).val = (i 0).val := by
  unfold DotDims.lhsIdx
  rw [dif_neg (show ¬(0 : Fin S5000x256.rank) ∈ D.lhsBatch by decide), dif_pos (show (0 : Fin S5000x256.rank) ∈ D.lhsNonContracting by decide)]
  rfl
theorem lhs1 (i : S5000x64.Idx) (q : D.contr.Idx) : (D.lhsIdx i q 1).val = (q ⟨0, by decide⟩).val :=
  D.lhsIdx_val_of_single rfl i q
theorem rhs0 (i : S5000x64.Idx) (q : D.contr.Idx) : (D.rhsIdx i q 0).val = (q ⟨0, by decide⟩).val :=
  D.rhsIdx_val_of_single rfl i q
theorem rhs1 (i : S5000x64.Idx) (q : D.contr.Idx) : (D.rhsIdx i q 1).val = (i 1).val := by
  unfold DotDims.rhsIdx
  rw [dif_neg (show ¬(1 : Fin S256x64.rank) ∈ D.rhsBatch by decide), dif_pos (show (1 : Fin S256x64.rank) ∈ D.rhsNonContracting by decide)]
  rfl

/-- The body's stored value at row p, column q of the block: the sum over the 256 contracted features. -/
theorem pay_at (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  refine (Ideal.matmul_constant_zero_apply D none _ _ (ix2 p q)).trans ?_
  rw [← Equiv.sum_comp (ValueIdx.contrEquiv1 D 256 rfl rfl).symm]
  refine Finset.sum_congr rfl fun k _ => ?_
  have hk := ValueIdx.contrEquiv1_symm_val D 256 rfl rfl k
  have el : D.lhsIdx (ix2 p q) ((ValueIdx.contrEquiv1 D 256 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 256 rfl rfl).symm k) = ix2 k q := funext fun a => Fin.ext (by
    match a with
    | ⟨0, _⟩ => exact (rhs0 _ _).trans hk
    | ⟨1, _⟩ => exact rhs1 _ _)
  rw [el, er]
  rfl

/-! ## The windows' blocks -/

/-- The index maps over the grid: x and the result move one row block per point, W1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem row_lt (t : Fin cfg0.N) (p : Fin 5000) : 5000 * t.val + p.val < 100000 := by
  have ht : t.val < 20 := by have h := t.isLt; have hN : cfg0.N = 20 := N_0; omega
  have hp := p.isLt
  omega

/-- Row p, feature k of x's block at point t is row 5000·t + p of x. -/
theorem xblk_at (c : Dev nD) (t : Fin cfg0.N) (p : Fin 5000) (k : Fin 256) :
    (iblk0 V c 0 t : Vec Ideal S5000x256 .f32) (ix2 p k)
      = (V c main_arg0 : S100000x256.Idx → EReal) (ix2 ⟨5000 * t.val + p.val, row_lt t p⟩ k) := by
  obtain ⟨e0, e1, -⟩ := idx_facts t
  unfold iblk0
  rw [View.read_apply]
  show (V c main_arg0 : S100000x256.Idx → EReal) _ = _
  refine congrArg (V c main_arg0 : S100000x256.Idx → EReal) ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 256 + 1 * k.val = k.val; rw [e1]; omega

/-- W1's block at every point is W1. -/
theorem wblk_at (c : Dev nD) (t : Fin cfg0.N) (k : Fin 256) (q : Fin 64) :
    (iblk0 V c 1 t : Vec Ideal S256x64 .f32) (ix2 k q) = (V c main_arg2 : S256x64.Idx → EReal) (ix2 k q) := by
  obtain ⟨-, -, e2, e3, -⟩ := idx_facts t
  unfold iblk0
  rw [View.read_apply]
  show (V c main_arg2 : S256x64.Idx → EReal) _ = _
  refine congrArg (V c main_arg2 : S256x64.Idx → EReal) ?_
  funext a
  apply Fin.ext
  match a with
  | ⟨0, _⟩ => show win0_1.index t (0 : Fin 2) * 256 + 1 * k.val = k.val; rw [e2]; omega
  | ⟨1, _⟩ => show win0_1.index t (1 : Fin 2) * 64 + 1 * q.val = q.val; rw [e3]; omega

/-! ## What a point writes back, the cover, the array -/

/-- What point t writes back is block t of the whole product of the arrays the region finds. -/
theorem flushed_eq (c : Dev nD) (t : Fin cfg0.N) :
    (dat0 V c).flushed 2 t = ((cfg0.win 2).blk t).view.read (Elt Ideal)
      (Cert.ReferenceIdeal.ReadP.val_main_v30 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨-, -, -, -, e4, e5⟩ := idx_facts t
  funext y
  obtain ⟨p, q, rfl⟩ : ∃ (p : Fin 5000) (q : Fin 64), y = ix2 p q := ⟨y 0, y 1, eq_ix2 y⟩
  have hemb : ((cfg0.win 2).blk t).view.emb (ix2 p q) = (ix2 ⟨5000 * t.val + p.val, row_lt t p⟩ q : S100000x64.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 64 + 1 * q.val = q.val; rw [e5]; omega
  show k0_pay1 (F := Ideal) (iblk0 V c 0 t) (iblk0 V c 1 t) (ix2 p q)
    = Cert.ReferenceIdeal.ReadP.val_main_v30 (F := Ideal) (V c main_arg0) (V c main_arg2) (((cfg0.win 2).blk t).view.emb (ix2 p q))
  rw [hemb, pay_at (iblk0 V c 0 t) (iblk0 V c 1 t) p q, Cert.Gcn.dense1_at]
  refine Finset.sum_congr rfl fun k _ => ?_
  rw [xblk_at V c t p k, wblk_at V c t k q]

/-- An index of the result array is in point t's block iff its row is among the block's 5000. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row is in the block of the point its number divided by 5000 names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- The result array after the region is the whole product of the arrays the region found. -/
theorem value (c : Dev nD) :
    (dat0 V c).arrAt 2 cfg0.N = Cert.ReferenceIdeal.ReadP.val_main_v30 (F := Ideal) (V c main_arg0) (V c main_arg2) :=
  (dat0 V c).arrAt_eq_of_cover 2 _ (fun t _ => flushed_eq V c t) cover

end Cert.KernelIdeal.Dense1

end
-- ==== Proof.Dense2.lean ====
/-
  The second kernel region computes relu(agg + b) · W row block by row block.

  The grid has 10 points.  At point t the kernel loads rows 10000·t … of the aggregated features, the whole bias row b
  and the whole of W, adds the bias to every row, clamps at zero, and multiplies into a zero accumulator (the
  roundings to bf16 on the way in change nothing over the extended reals).  Entry (10000·t + p, q) of what point t
  writes back is the sum over k of max(agg(10000·t + p, k) + b(k), 0) · W(k, q): block t of the whole second dense
  step.  The 10 blocks cover the 100000 rows.
-/
import proofs.«117785_j77653008712166_1_alg».proof.Proof.Gen.KernelIdeal.Frame
import proofs.«117785_j77653008712166_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem
open Idealize.ShloMosaic.Pipeline (Dat)
open Idealize.ShloMosaic.ValueIdx

/-- The kernel's matrix product: [10000, 64] by [64, 32], axis 1 against axis 0. -/
abbrev D := dot_S10000x64_S64x32_S10000x32_1_0_0_1_n_n

theorem hz2 : (![0, 0] : Fin 2 → Nat) = fun _ => 0 := funext fun a => by fin_cases a <;> rfl
theorem hz1 : (![0] : Fin 1 → Nat) = fun _ => 0 := funext fun a => by fin_cases a; rfl

/-! ## The product's operand indices -/

theorem lhs0 (i : S10000x32.Idx) (q : D.contr.Idx) : (D.lhsIdx i q 0).val = (i 0).val := by
  unfold DotDims.lhsIdx
  rw [dif_neg (show ¬(0 : Fin S10000x64.rank) ∈ D.lhsBatch by decide), dif_pos (show (0 : Fin S10000x64.rank) ∈ D.lhsNonContracting by decide)]
  rfl
theorem lhs1 (i : S10000x32.Idx) (q : D.contr.Idx) : (D.lhsIdx i q 1).val = (q ⟨0, by decide⟩).val :=
  D.lhsIdx_val_of_single rfl i q
theorem rhs0 (i : S10000x32.Idx) (q : D.contr.Idx) : (D.rhsIdx i q 0).val = (q ⟨0, by decide⟩).val :=
  D.rhsIdx_val_of_single rfl i q
theorem rhs1 (i : S10000x32.Idx) (q : D.contr.Idx) : (D.rhsIdx i q 1).val = (i 1).val := by
  unfold DotDims.rhsIdx
  rw [dif_neg (show ¬(1 : Fin S64x32.rank) ∈ D.rhsBatch by decide), dif_pos (show (1 : Fin S64x32.rank) ∈ D.rhsNonContracting by decide)]
  rfl

/-- The body's stored value at row p, column q of the block: the clamped, biased row against W's column. -/
theorem pay_at (x0 : Vec Ideal S10000x64 .f32) (x1 : Vec Ideal S64 .f32) (x2 : Vec Ideal S64x32 .f32) (p : Fin 10000) (q : Fin 32) :
    k1_pay1 (F := Ideal) x0 x1 x2 (ix2 p q)
      = ∑ k : Fin 64, max (x0 (ix2 p k) + x1 (ix1 k)) (Ideal.ofBits .f32 0x00000000#32) * x2 (ix2 k q) := by
  unfold k1_pay1
  refine (Ideal.matmul_constant_zero_apply D none _ _ (ix2 p q)).trans ?_
  rw [← Equiv.sum_comp (ValueIdx.contrEquiv1 D 64 rfl rfl).symm]
  refine Finset.sum_congr rfl fun k _ => ?_
  have hk := ValueIdx.contrEquiv1_symm_val D 64 rfl rfl k
  have el : D.lhsIdx (ix2 p q) ((ValueIdx.contrEquiv1 D 64 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 64 rfl rfl).symm k) = ix2 k q := funext fun a => Fin.ext (by
    match a with
    | ⟨0, _⟩ => exact (rhs0 _ _).trans hk
    | ⟨1, _⟩ => exact rhs1 _ _)
  rw [el, er]
  show max (shapeCast S10000x64 x0 shapeCasts_S10000x64_S10000x64 (ix2 p k)
      + broadcastTo S10000x64 (shapeCast S1x64 x1 shapeCasts_S64_S1x64) broadcasts_S1x64_S10000x64 (ix2 p k))
      (Ideal.ofBits .f32 0x00000000#32) * x2 (ix2 k q) = _
  rw [shapeCast_self, broadcastTo_1b_ab_apply, shapeCast_a_1a_apply]

/-! ## The windows' blocks -/

/-- The index maps over the grid: the aggregated features and the result move one row block per point, the bias and W
    stay. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

theorem row_lt (t : Fin cfg1.N) (p : Fin 10000) : 10000 * t.val + p.val < 100000 := by
  have ht : t.val < 10 := by have h := t.isLt; have hN : cfg1.N = 10 := N_1; omega
  have hp := p.isLt
  omega

/-- Row p, feature k of the aggregated features' block at point t is row 10000·t + p of the array. -/
theorem xblk_at (c : Dev nD) (t : Fin cfg1.N) (p : Fin 10000) (k : Fin 64) :
    (iblk1 V c 0 t : Vec Ideal S10000x64 .f32) (ix2 p k)
      = (V c main_v43 : S100000x64.Idx → EReal) (ix2 ⟨10000 * t.val + p.val, row_lt t p⟩ k) := by
  obtain ⟨e0, e1, -⟩ := idx_facts t
  unfold iblk1
  rw [View.read_apply]
  show (V c main_v43 : S100000x64.Idx → EReal) _ = _
  refine congrArg (V c main_v43 : S100000x64.Idx → EReal) ?_
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * k.val = k.val; rw [e1]; omega

/-- The bias's block at every point is the bias. -/
theorem bblk_at (c : Dev nD) (t : Fin cfg1.N) (k : Fin 64) :
    (iblk1 V c 1 t : Vec Ideal S64 .f32) (ix1 k) = (V c main_arg3 : S64.Idx → EReal) (ix1 k) := by
  obtain ⟨-, -, e2, -⟩ := idx_facts t
  unfold iblk1
  rw [View.read_apply]
  show (V c main_arg3 : S64.Idx → EReal) _ = _
  refine congrArg (V c main_arg3 : S64.Idx → EReal) ?_
  funext a
  apply Fin.ext
  match a with
  | ⟨0, _⟩ => show win1_1.index t (0 : Fin 1) * 64 + 1 * k.val = k.val; rw [e2]; omega

/-- W's block at every point is W. -/
theorem wblk_at (c : Dev nD) (t : Fin cfg1.N) (k : Fin 64) (q : Fin 32) :
    (iblk1 V c 2 t : Vec Ideal S64x32 .f32) (ix2 k q) = (V c main_arg4 : S64x32.Idx → EReal) (ix2 k q) := by
  obtain ⟨-, -, -, e3, e4, -⟩ := idx_facts t
  unfold iblk1
  rw [View.read_apply]
  show (V c main_arg4 : S64x32.Idx → EReal) _ = _
  refine congrArg (V c main_arg4 : S64x32.Idx → EReal) ?_
  funext a
  apply Fin.ext
  match a with
  | ⟨0, _⟩ => show win1_2.index t (0 : Fin 2) * 64 + 1 * k.val = k.val; rw [e3]; omega
  | ⟨1, _⟩ => show win1_2.index t (1 : Fin 2) * 32 + 1 * q.val = q.val; rw [e4]; omega

/-! ## What a point writes back, the cover, the array -/

/-- What point t writes back is block t of the second dense step of the arrays the region finds. -/
theorem flushed_eq (c : Dev nD) (t : Fin cfg1.N) :
    (dat1 V c).flushed 3 t = ((cfg1.win 3).blk t).view.read (Elt Ideal)
      (Cert.Gcn.dense2 (V c main_v43) (V c main_arg3) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64) hz1, View.ld_unit_zero (S := S64x32) hz2]
  obtain ⟨-, -, -, -, -, e5, e6⟩ := idx_facts t
  funext y
  obtain ⟨p, q, rfl⟩ : ∃ (p : Fin 10000) (q : Fin 32), y = ix2 p q := ⟨y 0, y 1, eq_ix2 y⟩
  have hemb : ((cfg1.win 3).blk t).view.emb (ix2 p q) = (ix2 ⟨10000 * t.val + p.val, row_lt t p⟩ q : S100000x32.Idx) := by
    funext a
    apply Fin.ext
    match a with
    | ⟨0, _⟩ => show win1_3.index t (0 : Fin 2) * 10000 + 1 * p.val = 10000 * t.val + p.val; rw [e5]; omega
    | ⟨1, _⟩ => show win1_3.index t (1 : Fin 2) * 32 + 1 * q.val = q.val; rw [e6]; omega
  show k1_pay1 (F := Ideal) (iblk1 V c 0 t) (iblk1 V c 1 t) (iblk1 V c 2 t) (ix2 p q)
    = Cert.Gcn.dense2 (V c main_v43) (V c main_arg3) (V c main_arg4) (((cfg1.win 3).blk t).view.emb (ix2 p q))
  rw [hemb, pay_at (iblk1 V c 0 t) (iblk1 V c 1 t) (iblk1 V c 2 t) p q, Cert.Gcn.dense2_at]
  refine Finset.sum_congr rfl fun k _ => ?_
  rw [xblk_at V c t p k, bblk_at V c t k, wblk_at V c t k q]

/-- An index of the result array is in point t's block iff its row is among the block's 10000. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v44).slice (win1_3.rect t)).set ↔ _
  rw [View.set_slice_whole, Rect.mem_set_unit]
  exact Iff.rfl

/-- Every row is in the block of the point its number divided by 10000 names. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  have ht : (i 0).val / 10000 < cfg1.N := by rw [hN]; omega
  obtain ⟨-, -, -, -, -, e5, e6⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win1_3.index ⟨(i 0).val / 10000, ht⟩ (1 : Fin 2) * 32 ≤ (i 1).val ∧ (i 1).val < win1_3.index ⟨(i 0).val / 10000, ht⟩ (1 : Fin 2) * 32 + 32
    rw [e6]; omega

/-- The result array after the region is the second dense step of the arrays the region found. -/
theorem value (c : Dev nD) :
    (dat1 V c).arrAt 3 cfg1.N = Cert.Gcn.dense2 (V c main_v43) (V c main_arg3) (V c main_arg4) :=
  (dat1 V c).arrAt_eq_of_cover 3 _ (fun t _ => flushed_eq V c t) cover

end Cert.KernelIdeal.Dense2

end
-- ==== Proof.Dense3.lean ====
/-
  The third kernel region computes relu(agg + b) · W + c row block by row block.

  The grid has 5 points.  At point t the kernel loads rows 20000·t … of the aggregated features, the bias row b, the
  whole of W (one column) and the one output bias c; it adds b to every row, clamps at zero, multiplies into a zero
  accumulator and adds c to every entry.  Entry (20000·t + p, 0) of what point t writes back is the sum over k of
  max(agg(20000·t + p, k) + b(k), 0) · W(k, 0), plus c: block t of the whole last dense step.  The 5 blocks cover the
  100000 rows.
-/
import proofs.«117785_j77653008712166_1_alg».proof.Proof.Gen.KernelIdeal.Frame
import proofs.«117785_j77653008712166_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense3

open Cert.KernelIdeal Cert.KernelIdeal.Gen
open Idealize.ShloMosaic Idealize.ShloMosaic.TcCoe Idealize.SL.Sem
open Idealize.ShloMosaic.Pipeline (Dat)
open Idealize.ShloMosaic.ValueIdx

/-- The kernel's matrix product: [20000, 32] by [32, 1], axis 1 against axis 0. -/
abbrev D := dot_S20000x32_S32x1_S20000x1_1_0_0_1_n_n

theorem hz2 : (![0, 0] : Fin 2 → Nat) = fun _ => 0 := funext fun a => by fin_cases a <;> rfl
theorem hz1 : (![0] : Fin 1 → Nat) = fun _ => 0 := funext fun a => by fin_cases a; rfl

/-! ## The product's operand indices -/

theorem lhs0 (i : S20000x1.Idx) (q : D.contr.Idx) : (D.lhsIdx i q 0).val = (i 0).val := by
  unfold DotDims.lhsIdx
  rw [dif_neg (show ¬(0 : Fin S20000x32.rank) ∈ D.lhsBatch by decide), dif_pos (show (0 : Fin S20000x32.rank) ∈ D.lhsNonContracting by decide)]
  rfl
theorem lhs1 (i : S20000x1.Idx) (q : D.contr.Idx) : (D.lhsIdx i q 1).val = (q ⟨0, by decide⟩).val :=
  D.lhsIdx_val_of_single rfl i q
theorem rhs0 (i : S20000x1.Idx) (q : D.contr.Idx) : (D.rhsIdx i q 0).val = (q ⟨0, by decide⟩).val :=
  D.rhsIdx_val_of_single rfl i q
theorem rhs1 (i : S20000x1.Idx) (q : D.contr.Idx) : (D.rhsIdx i q 1).val = (i 1).val := by
  unfold DotDims.rhsIdx
  rw [dif_neg (show ¬(1 : Fin S32x1.rank) ∈ D.rhsBatch by decide), dif_pos (show (1 : Fin S32x1.rank) ∈ D.rhsNonContracting by decide)]
  rfl

/-- The product into a zero accumulator at row p, column q: the sum over the 32 contracted features. -/
theorem mm_at (y0 : FVec Ideal S20000x32 .bf16) (w : FVec Ideal S32x1 .bf16) (p : Fin 20000) (q : Fin 1) :
    matmul D none y0 w (constant S20000x1 .f32 0x00000000#32) (ix2 p q) = ∑ k : Fin 32, y0 (ix2 p k) * w (ix2 k q) := by
  refine (Ideal.matmul_constant_zero_apply D none _ _ (ix2 p q)).trans ?_
  rw [← Equiv.sum_comp (ValueIdx.contrEquiv1 D 32 rfl rfl).symm]
  refine Finset.sum_congr rfl fun k _ => ?_
  have hk := ValueIdx.contrEquiv1_symm_val D 32 rfl rfl k
  have el : D.lhsIdx (ix2 p q) ((ValueIdx.contrEquiv1 D 32 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 32 rfl rfl).symm k) = ix2 k q := funext fun a => Fin.ext (by
    match a with
    | ⟨0, _⟩ => exact (rhs0 _ _).trans hk
    | ⟨1, _⟩ => exact rhs1 _ _)
  rw [el, er]

/-- The body's stored value at row p of the block: the clamped, biased row against W's column, plus the output bias. -/
theorem pay_at (x0 : Vec Ideal S20000x32 .f32) (x1 : Vec Ideal S32 .f32) (x2 : Vec Ideal S32x1 .f32) (x3 : Vec Ideal S1 .f32)
    (p : Fin 20000) (q : Fin 1) :
    k2_pay1 (F := Ideal) x0 x1 x2 x3 (ix2 p q)
      = (∑ k : Fin 32, max (x0 (ix2 p k) + x1 (ix1 k)) (Ideal.ofBits .f32 0x00000000#32) * x2 (ix2 k q)) + x3 (ix1 0) := by
  have hb : broadcastTo S20000x1 (shapeCast S1x1 x3 shapeCasts_S1_S1x1) broadcasts_S1x1_S20000x1 (ix2 p q) = x3 (ix1 0) := by
    rw [broadcastTo_1b_ab_apply, shapeCast_a_1a_apply]
    exact congrArg x3 (congrArg ix1 (Subsingleton.elim q 0))
  unfold k2_pay1
  show matmul (F := Ideal) D none _ _ (constant (F := Ideal) S20000x1 .f32 0x00000000#32) (ix2 p q)
      + broadcastTo S20000x1 (shapeCast S1x1 x3 shapeCasts_S1_S1x1) broadcasts_S1x1_S20000x1 (ix2 p q) = _
  rw [mm_at, hb]
  refine congrArg (· + x3 (ix1 0)) (Finset.sum_congr rfl fun k _ => ?_)
  show max (shapeCast S20000x32 x0 shapeCasts_S20000x32_S20000x32 (ix2 p k)
      + broadcastTo S20000x32 (shapeCast S1x32 x1 shapeCasts_S32_S1x32) broadcasts_S1x32_S20000x32 (ix2 p k))
      (Ideal.ofBits .f32 0x00000000#32) * x2 (ix2 k q) = _
  rw [shapeCast_self, broadcastTo_1b_ab_apply, shapeCast_a_1a_apply]

/-! ## The windows' blocks -/

/-- The index maps over the grid: the aggregated features and the result move one row block per point, the biases
    and W stay. -/
theorem idx_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

theorem row_lt (t : Fin cfg2.N) (p : Fin 20000) : 20000 * t.val + p.val < 100000 := by
  have ht : t.val < 5 := by have h := t.isLt; have hN : cfg2.N = 5 := N_2; omega
  have hp := p.isLt
  omega

/-- Row p, feature k of the aggregated features' block at point t is row 20000·t + p of the array. -/
theorem xblk_at (c : Dev nD) (t : Fin cfg2.N) (p : Fin 20000) (k : Fin 32) :
    (iblk2 V c 0 t : Vec Ideal S20000x32 .f32) (ix2 p k)
      = (V c main_v57 : S100000x32.Idx → EReal) (ix2 ⟨20000 * t.val + p.val, row_lt t p⟩ k) := by
  obtain ⟨e0, e1, -⟩ := idx_facts t
  unfold iblk2
  rw [View.read_apply]
  show (V c main_v57 : S100000x32.Idx → EReal) _ = _
  refine congrArg (V c main_v57 : S100000x32.Idx → EReal) ?_
  funext a
  apply Fin.ext
  match a with
  | ⟨0, _⟩ => show win2_0.index t (0 : Fin 2) * 20000 + 1 * p.val = 20000 * t.val + p.val; rw [e0]; omega
  | ⟨1, _⟩ => show win2_0.index t (1 : Fin 2) * 32 + 1 * k.val = k.val; rw [e1]; omega

/-- The bias's block at every point is the bias. -/
theorem bblk_at (c : Dev nD) (t : Fin cfg2.N) (k : Fin 32) :
    (iblk2 V c 1 t : Vec Ideal S32 .f32) (ix1 k) = (V c main_arg5 : S32.Idx → EReal) (ix1 k) := by
  obtain ⟨-, -, e2, -⟩ := idx_facts t
  unfold iblk2
  rw [View.read_apply]
  show (V c main_arg5 : S32.Idx → EReal) _ = _
  refine congrArg (V c main_arg5 : S32.Idx → EReal) ?_
  funext a
  apply Fin.ext
  match a with
  | ⟨0, _⟩ => show win2_1.index t (0 : Fin 1) * 32 + 1 * k.val = k.val; rw [e2]; omega

/-- W's block at every point is W. -/
theorem wblk_at (c : Dev nD) (t : Fin cfg2.N) (k : Fin 32) (q : Fin 1) :
    (iblk2 V c 2 t : Vec Ideal S32x1 .f32) (ix2 k q) = (V c main_arg6 : S32x1.Idx → EReal) (ix2 k q) := by
  obtain ⟨-, -, -, e3, e4, -⟩ := idx_facts t
  unfold iblk2
  rw [View.read_apply]
  show (V c main_arg6 : S32x1.Idx → EReal) _ = _
  refine congrArg (V c main_arg6 : S32x1.Idx → EReal) ?_
  funext a
  apply Fin.ext
  match a with
  | ⟨0, _⟩ => show win2_2.index t (0 : Fin 2) * 32 + 1 * k.val = k.val; rw [e3]; omega
  | ⟨1, _⟩ => show win2_2.index t (1 : Fin 2) * 1 + 1 * q.val = q.val; rw [e4]; omega

/-- The output bias's block at every point is the output bias. -/
theorem cblk_at (c : Dev nD) (t : Fin cfg2.N) :
    (iblk2 V c 3 t : Vec Ideal S1 .f32) (ix1 0) = (V c main_arg7 : S1.Idx → EReal) (ix1 0) := by
  obtain ⟨-, -, -, -, -, e5, -⟩ := idx_facts t
  unfold iblk2
  rw [View.read_apply]
  show (V c main_arg7 : S1.Idx → EReal) _ = _
  refine congrArg (V c main_arg7 : S1.Idx → EReal) ?_
  funext a
  apply Fin.ext
  match a with
  | ⟨0, _⟩ => show win2_3.index t (0 : Fin 1) * 1 + 1 * (0 : Fin 1).val = (0 : Fin 1).val; rw [e5]; rfl

/-! ## What a point writes back, the cover, the array -/

/-- What point t writes back is block t of the last dense step of the arrays the region finds. -/
theorem flushed_eq (c : Dev nD) (t : Fin cfg2.N) :
    (dat2 V c).flushed 4 t = ((cfg2.win 4).blk t).view.read (Elt Ideal)
      (Cert.Gcn.dense3 (V c main_v57) (V c main_arg5) (V c main_arg6) (V c main_arg7)) := by
  show (cfg2.win 4).cut (grid2.coords t) ((dat2 V c).after 4 t) = _
  rw [after2_4]
  unfold out2_4
  rw [View.canon_unit_zero hz2]
  simp only [View.ld_unit_zero (S := S20000x32) hz2, View.ld_unit_zero (S := S32) hz1, View.ld_unit_zero (S := S32x1) hz2, View.ld_unit_zero (S := S1) hz1]
  obtain ⟨-, -, -, -, -, -, e6, e7⟩ := idx_facts t
  funext y
  obtain ⟨p, q, rfl⟩ : ∃ (p : Fin 20000) (q : Fin 1), y = ix2 p q := ⟨y 0, y 1, eq_ix2 y⟩
  have hemb : ((cfg2.win 4).blk t).view.emb (ix2 p q) = (ix2 ⟨20000 * t.val + p.val, row_lt t p⟩ q : S100000x1.Idx) := by
    funext a
    apply Fin.ext
    match a with
    | ⟨0, _⟩ => show win2_4.index t (0 : Fin 2) * 20000 + 1 * p.val = 20000 * t.val + p.val; rw [e6]; omega
    | ⟨1, _⟩ => show win2_4.index t (1 : Fin 2) * 1 + 1 * q.val = q.val; rw [e7]; omega
  show k2_pay1 (F := Ideal) (iblk2 V c 0 t) (iblk2 V c 1 t) (iblk2 V c 2 t) (iblk2 V c 3 t) (ix2 p q)
    = Cert.Gcn.dense3 (V c main_v57) (V c main_arg5) (V c main_arg6) (V c main_arg7) (((cfg2.win 4).blk t).view.emb (ix2 p q))
  rw [hemb, pay_at (iblk2 V c 0 t) (iblk2 V c 1 t) (iblk2 V c 2 t) (iblk2 V c 3 t) p q, Cert.Gcn.dense3_at, cblk_at V c t]
  refine congrArg (· + (V c main_arg7 : S1.Idx → EReal) (ix1 0)) (Finset.sum_congr rfl fun k _ => ?_)
  rw [xblk_at V c t p k, bblk_at V c t k, wblk_at V c t k q]

/-- An index of the result array is in point t's block iff its row is among the block's 20000. -/
theorem mem_blk (t : Fin cfg2.N) (i : S100000x1.Idx) :
    i ∈ ((cfg2.win 4).blk t).view.set ↔ ∀ a : Fin 2, win2_4.index t a * S20000x1.size a ≤ (i a).val ∧ (i a).val < win2_4.index t a * S20000x1.size a + S20000x1.size a := by
  show i ∈ ((View.whole main_v58).slice (win2_4.rect t)).set ↔ _
  rw [View.set_slice_whole, Rect.mem_set_unit]
  exact Iff.rfl

/-- Every row is in the block of the point its number divided by 20000 names. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 5 := N_2
  have ht : (i 0).val / 20000 < cfg2.N := by rw [hN]; omega
  obtain ⟨-, -, -, -, -, -, e6, e7⟩ := idx_facts ⟨(i 0).val / 20000, ht⟩
  refine ⟨⟨(i 0).val / 20000, ht⟩, flush2_4 _, ?_⟩
  rw [mem_blk]
  intro a
  match a with
  | ⟨0, _⟩ =>
    show win2_4.index ⟨(i 0).val / 20000, ht⟩ (0 : Fin 2) * 20000 ≤ (i 0).val ∧ (i 0).val < win2_4.index ⟨(i 0).val / 20000, ht⟩ (0 : Fin 2) * 20000 + 20000
    rw [e6]; show (i 0).val / 20000 * 20000 ≤ (i 0).val ∧ (i 0).val < (i 0).val / 20000 * 20000 + 20000; omega
  | ⟨1, _⟩ =>
    show win2_4.index ⟨(i 0).val / 20000, ht⟩ (1 : Fin 2) * 1 ≤ (i 1).val ∧ (i 1).val < win2_4.index ⟨(i 0).val / 20000, ht⟩ (1 : Fin 2) * 1 + 1
    rw [e7]; omega

/-- The result array after the region is the last dense step of the arrays the region found. -/
theorem value (c : Dev nD) :
    (dat2 V c).arrAt 4 cfg2.N = Cert.Gcn.dense3 (V c main_v57) (V c main_arg5) (V c main_arg6) (V c main_arg7) :=
  (dat2 V c).arrAt_eq_of_cover 4 _ (fun t _ => flushed_eq V c t) cover

end Cert.KernelIdeal.Dense3

end
-- ==== Proof.Host.lean ====
/-
  The kernel program's buffers carried from the launch to the return.

  The edge lists (with their self loops) and the edges' coefficients are computed once, before the first region, by
  the reference's own operations, and no later segment writes them or an argument.  So, boundary by boundary: the
  first region's result is x · W1, the aggregation after it the reference's first aggregate, the second region's
  result the reference's second dense stage, the aggregation after it the reference's second aggregate, and the third
  region's result — the program's result buffer — the reference's last stage of the launch contents of the
  arguments.
-/
import proofs.«117785_j77653008712166_1_alg».proof.Proof.Gen.KernelIdeal.Frame
import proofs.«117785_j77653008712166_1_alg».proof.Proof.KernelRun
import proofs.«117785_j77653008712166_1_alg».proof.Proof.Spec
import proofs.«117785_j77653008712166_1_alg».proof.Proof.Stretch
import proofs.«117785_j77653008712166_1_alg».proof.Proof.Dense1
import proofs.«117785_j77653008712166_1_alg».proof.Proof.Dense2
import proofs.«117785_j77653008712166_1_alg».proof.Proof.Dense3

set_option maxRecDepth 16384

noncomputable section

namespace Cert.KernelIdeal.Host

open Cert.KernelIdeal Cert.KernelIdeal.Gen Cert.KernelIdeal.Stretch
open Idealize.ShloMosaic Idealize.ShloMosaic.TcCoe Idealize.SL.Sem Idealize.ShloMosaic.StableHlo
open Cert.ReferenceIdeal.ReadP (val_main_v3 val_main_v6 val_main_v29 val_main_v30 val_main_v43 val_main_v48 val_main_v61 val_main_v69)

/-! ## The buffers, boundary by boundary -/

section Boundaries

variable (m : (ℓ : Loc nD τ sig) → Buf (Elt Ideal) ℓ) (ρ : Dev nD → PrngReg) (c : Dev nD)

/-- At the first region's entry. -/
theorem W3_src : W3 m ρ c (Proc.devRef .tc main_v3) = val_main_v3 (F := Ideal) (m ((c : Thread nD τ).loc main_arg1)) := pre_src (W0 m ρ c)
theorem W3_dst : W3 m ρ c (Proc.devRef .tc main_v6) = val_main_v6 (F := Ideal) (m ((c : Thread nD τ).loc main_arg1)) := pre_dst (W0 m ρ c)
theorem W3_norm : W3 m ρ c (Proc.devRef .tc main_v29) = val_main_v29 (F := Ideal) (m ((c : Thread nD τ).loc main_arg1)) := pre_norm (W0 m ρ c)
theorem W3_arg (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) := pre_keep (W0 m ρ c) b hb

/-- At the first region's exit: its result is x · W1, the rest as entered. -/
theorem W4_h1 : W4 m ρ c (Proc.devRef .tc main_v30)
    = val_main_v30 (F := Ideal) (m ((c : Thread nD τ).loc main_arg0)) (m ((c : Thread nD τ).loc main_arg2)) := by
  refine (W4_arr m ρ c 2).trans ((Dense1.value (V3 m ρ) c).trans ?_)
  show val_main_v30 (F := Ideal) (W3 m ρ c (Proc.devRef .tc main_arg0)) (W3 m ρ c (Proc.devRef .tc main_arg2)) = _
  rw [W3_arg m ρ c main_arg0 (by decide), W3_arg m ρ c main_arg2 (by decide)]

/-- At the second region's entry: the first aggregate. -/
theorem W5_agg1 : W5 m ρ c (Proc.devRef .tc main_v43)
    = val_main_v43 (F := Ideal) (m ((c : Thread nD τ).loc main_arg0)) (m ((c : Thread nD τ).loc main_arg1)) (m ((c : Thread nD τ).loc main_arg2)) := by
  refine (agg1 (W4 m ρ c)).trans ?_
  rw [W4_of_ne m ρ c main_v3 (by decide), W4_of_ne m ρ c main_v6 (by decide), W4_of_ne m ρ c main_v29 (by decide),
    W3_src m ρ c, W3_dst m ρ c, W3_norm m ρ c, W4_h1 m ρ c]
  exact (Cert.Gcn.ref_agg1 _ _ _).symm

/-- At the second region's entry the edge lists, the coefficients and the later arguments are as at the first's. -/
theorem W5_of (b : Ref sig .tc) (hb : b = main_v3 ∨ b = main_v6 ∨ b = main_v29 ∨ b = main_arg3 ∨ b = main_arg4 ∨ b = main_arg5 ∨ b = main_arg6 ∨ b = main_arg7) :
    W5 m ρ c (Proc.devRef .tc b) = W3 m ρ c (Proc.devRef .tc b) := by
  refine (keep1 (W4 m ρ c) b hb).trans ?_
  rcases hb with rfl | rfl | rfl | rfl | rfl | rfl | rfl | rfl <;> exact W4_of_ne m ρ c _ (by decide)

/-- At the second region's exit: its result is the reference's second dense stage. -/
theorem W6_h2 : W6 m ρ c (Proc.devRef .tc main_v44)
    = val_main_v48 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 3).trans ((Dense2.value (V5 m ρ) c).trans ?_)
  show Cert.Gcn.dense2 (W5 m ρ c (Proc.devRef .tc main_v43)) (W5 m ρ c (Proc.devRef .tc main_arg3)) (W5 m ρ c (Proc.devRef .tc main_arg4)) = _
  rw [W5_agg1 m ρ c, W5_of m ρ c main_arg3 (by decide), W5_of m ρ c main_arg4 (by decide),
    W3_arg m ρ c main_arg3 (by decide), W3_arg m ρ c main_arg4 (by decide)]
  exact (Cert.Gcn.ref_h2 _ _ _ _ _).symm

/-- At the second region's exit the edge lists, the coefficients and the last arguments are as at the first's entry. -/
theorem W6_of (b : Ref sig .tc) (hb : b = main_v3 ∨ b = main_v6 ∨ b = main_v29 ∨ b = main_arg5 ∨ b = main_arg6 ∨ b = main_arg7) :
    W6 m ρ c (Proc.devRef .tc b) = W3 m ρ c (Proc.devRef .tc b) := by
  have h5 : W5 m ρ c (Proc.devRef .tc b) = W3 m ρ c (Proc.devRef .tc b) :=
    W5_of m ρ c b (by rcases hb with h | h | h | h | h | h <;> simp [h])
  refine Eq.trans ?_ h5
  rcases hb with rfl | rfl | rfl | rfl | rfl | rfl <;> exact W6_of_ne m ρ c _ (by decide)

/-- At the third region's entry: the second aggregate. -/
theorem W7_agg2 : W7 m ρ c (Proc.devRef .tc main_v57)
    = val_main_v61 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (agg2 (W6 m ρ c)).trans ?_
  rw [W6_of m ρ c main_v3 (by decide), W6_of m ρ c main_v6 (by decide), W6_of m ρ c main_v29 (by decide),
    W3_src m ρ c, W3_dst m ρ c, W3_norm m ρ c, W6_h2 m ρ c]
  exact (Cert.Gcn.ref_agg2 _ _ _ _ _).symm

/-- At the third region's entry the last arguments are as launched. -/
theorem W7_arg (b : Ref sig .tc) (hb : b = main_arg5 ∨ b = main_arg6 ∨ b = main_arg7) :
    W7 m ρ c (Proc.devRef .tc b) = m ((c : Thread nD τ).loc b) :=
  (keep2 (W6 m ρ c) b hb).trans ((W6_of m ρ c b (by rcases hb with h | h | h <;> simp [h])).trans
    (W3_arg m ρ c b (by rcases hb with h | h | h <;> simp [h])))

/-- At the return: the result buffer holds the reference's last stage of the arguments' launch contents. -/
theorem W8_out : W8 m ρ c (Proc.devRef .tc main_v58)
    = val_main_v69 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W8_arr m ρ c 4).trans ((Dense3.value (V7 m ρ) c).trans ?_)
  show Cert.Gcn.dense3 (W7 m ρ c (Proc.devRef .tc main_v57)) (W7 m ρ c (Proc.devRef .tc main_arg5)) (W7 m ρ c (Proc.devRef .tc main_arg6))
    (W7 m ρ c (Proc.devRef .tc main_arg7)) = _
  rw [W7_agg2 m ρ c, W7_arg m ρ c main_arg5 (by decide), W7_arg m ρ c main_arg6 (by decide), W7_arg m ρ c main_arg7 (by decide)]
  exact (Cert.Gcn.ref_out _ _ _ _ _ _ _ _).symm

end Boundaries

/-! ## The run, read -/

/-- Every weakly fair execution of the idealized kernel program terminates without a fault; its result buffer ends at
    the reference's last stage of the arguments' launch contents, and the arguments end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v58)
        = val_main_v69 (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v58 (by decide))).trans (W8_out m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (Cert.KernelIdeal.Final.run_final m ρ)

end Cert.KernelIdeal.Host

end
-- ==== Proof.lean ====
/-
  The certificate's claims.

  The kernel program and the reference compute the same two-layer graph convolution.  Over the extended reals the
  kernel program's three row-blocked products are the reference's three whole products (a sum over the contracted
  axis either way, the roundings on the way into the kernel's products being the identity), the message passing
  between them is the reference's own gather and scatter-add with one product's factors in the other order, and the
  biases and clamps sit on either side of the same sums.  So the kernel program's result buffer ends at the reference's
  last stage of the arguments (the kernel's run, read boundary by boundary), the reference's at the same stage (its
  run read back), and arguments that agree give equal results.  The three frames are the programs' runs with the
  result forgotten; the idealization rewrote nothing, so there is nothing to preserve.
-/
import proofs.«117785_j77653008712166_1_alg».proof.Defs
import proofs.«117785_j77653008712166_1_alg».proof.Proof.Gen.Kernel
import proofs.«117785_j77653008712166_1_alg».proof.Proof.Gen.Kernel.Frame
import proofs.«117785_j77653008712166_1_alg».proof.Proof.Gen.KernelIdeal
import proofs.«117785_j77653008712166_1_alg».proof.Proof.Gen.KernelIdeal.Frame
import proofs.«117785_j77653008712166_1_alg».proof.Proof.Gen.ReferenceIdeal
import proofs.«117785_j77653008712166_1_alg».proof.Proof.Gen.Pre_finite_inputs
import proofs.«117785_j77653008712166_1_alg».proof.Proof.RefRun
import proofs.«117785_j77653008712166_1_alg».proof.Proof.RefRead
import proofs.«117785_j77653008712166_1_alg».proof.Proof.Host

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at the reference's last stage of their arguments, and the arguments agree. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v69_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
